-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel

variable [Facts]

def fn {F : FTy → Type} [FloatOps F] (main_arg0 : FVec F S4x2048x1024 .f32) (main_arg1 : FVec F S4x2048x1024 .f32) (main_arg2 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  main_v13
-- ==== Kernel.lean ====
abbrev S4x2048x1024 : Shape := ⟨3, ![4, 2048, 1024]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x512x64 : Shape := ⟨3, ![1, 512, 64]⟩
abbrev S4x2048x16x64 : Shape := ⟨4, ![4, 2048, 16, 64]⟩

abbrev nBuf : Space → Nat
  | .hbm => 5
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S4x2048x16x64, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x128, .f32⟩
  | .local _ .vmem, ⟨7, _⟩ => ⟨S1x512x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  bitsLt_bf16_f32 : FTy.bits .bf16 < FTy.bits .f32
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  inb_S1x512x128_S1x512x64_0_0_0 : ∀ a, (![0, 0, 0] : Fin 3 → Nat) a + S1x512x64.size a ≤ S1x512x128.size a
  h_S1x512x64 : 0 < S1x512x64.numel
  shapeCasts_S1x512x64_S512x64 : S1x512x64.ShapeCasts S512x64
  shapeCasts_S512x64_S1x512x64 : S512x64.ShapeCasts S1x512x64
  slices_S512x128_o0_64_S512x64 : S512x128.Slices ![0, 64] S512x64
  slices_S2048x128_o0_64_S2048x64 : S2048x128.Slices ![0, 64] S2048x64
  inb_S1x512x128_S1x512x64_0_0_64 : ∀ a, (![0, 0, 64] : Fin 3 → Nat) a + S1x512x64.size a ≤ S1x512x128.size a
  shapeCasts_S4x2048x1024_S4x2048x16x64 : S4x2048x1024.ShapeCasts S4x2048x16x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x2048x1024.size a
  hwx0_0 : ∀ i : grid0.Coords, EltTy.bits .f32 = 32 ∨ (Rect.block (s := S4x2048x1024) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S4x2048x1024.size a
  hwx0_1 : ∀ i : grid0.Coords, EltTy.bits .f32 = 32 ∨ (Rect.block (s := S4x2048x1024) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S4x2048x1024.size a
  hwx0_2 : ∀ i : grid0.Coords, EltTy.bits .f32 = 32 ∨ (Rect.block (s := S4x2048x1024) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S4x2048x1024.size a
  hwx0_3 : ∀ i : grid0.Coords, EltTy.bits .f32 = 32 ∨ (Rect.block (s := S4x2048x1024) S1x512x128.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4x2048x16x64 : Shape := ⟨4, ![4, 2048, 16, 64]⟩
abbrev S16x4x2048x64 : Shape := ⟨4, ![16, 4, 2048, 64]⟩
abbrev S_ : Shape := ⟨0, ![]⟩
abbrev S16x4x2048x2048 : Shape := ⟨4, ![16, 4, 2048, 2048]⟩
abbrev S16x4x2048 : Shape := ⟨3, ![16, 4, 2048]⟩
abbrev S16x4x2048x1 : Shape := ⟨4, ![16, 4, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x16x64, .f32⟩
  | .hbm, ⟨4, _⟩ => ⟨S16x4x2048x64, .f32⟩
  | .hbm, ⟨5, _⟩ => ⟨S4x2048x16x64, .f32⟩
  | .hbm, ⟨6, _⟩ => ⟨S16x4x2048x64, .f32⟩
  | .hbm, ⟨7, _⟩ => ⟨S4x2048x16x64, .f32⟩
  | .hbm, ⟨8, _⟩ => ⟨S16x4x2048x64, .f32⟩
  | .hbm, ⟨9, _⟩ => ⟨S_, .f32⟩
  | .hbm, ⟨10, _⟩ => ⟨S_, .f32⟩
  | .hbm, ⟨11, _⟩ => ⟨S16x4x2048x2048, .f32⟩
  | .hbm, ⟨12, _⟩ => ⟨S16x4x2048x2048, .f32⟩
  | .hbm, ⟨13, _⟩ => ⟨S16x4x2048x2048, .f32⟩
  | .hbm, ⟨14, _⟩ => ⟨S_, .f32⟩
  | .hbm, ⟨15, _⟩ => ⟨S16x4x2048, .f32⟩
  | .hbm, ⟨16, _⟩ => ⟨S_, .f32⟩
  | .hbm, ⟨17, _⟩ => ⟨S16x4x2048, .f32⟩
  | .hbm, ⟨18, _⟩ => ⟨S16x4x2048, .f32⟩
  | .hbm, ⟨19, _⟩ => ⟨S16x4x2048x1, .f32⟩
  | .hbm, ⟨20, _⟩ => ⟨S16x4x2048x2048, .f32⟩
  | .hbm, ⟨21, _⟩ => ⟨S16x4x2048x2048, .f32⟩
  | .hbm, ⟨22, _⟩ => ⟨S16x4x2048x2048, .f32⟩
  | .hbm, ⟨23, _⟩ => ⟨S_, .f32⟩
  | .hbm, ⟨24, _⟩ => ⟨S16x4x2048, .f32⟩
  | .hbm, ⟨25, _⟩ => ⟨S16x4x2048x1, .f32⟩
  | .hbm, ⟨26, _⟩ => ⟨S16x4x2048x2048, .f32⟩
  | .hbm, ⟨27, _⟩ => ⟨S16x4x2048x2048, .f32⟩
  | .hbm, ⟨28, _⟩ => ⟨S16x4x2048x64, .f32⟩
  | .hbm, ⟨29, _⟩ => ⟨S4x2048x16x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S16x4x2048x64_2_0_1_3 : S4x2048x16x64.Transposes [2, 0, 1, 3] S16x4x2048x64
  bcast_S_S16x4x2048x2048 : S_.BroadcastsInDim S16x4x2048x2048 (![] : Fin 0 → Fin S16x4x2048x2048.rank)
  reducesTo_S16x4x2048x2048_S16x4x2048_d3 : S16x4x2048x2048.ReducesTo [3] S16x4x2048
  h_S_ : 0 < S_.numel
  bcast_S_S16x4x2048 : S_.BroadcastsInDim S16x4x2048 (![] : Fin 0 → Fin S16x4x2048.rank)
  bcast_S16x4x2048_S16x4x2048x1_0_1_2 : S16x4x2048.BroadcastsInDim S16x4x2048x1 (![0, 1, 2] : Fin 3 → Fin S16x4x2048x1.rank)
  bcast_S16x4x2048x1_S16x4x2048x2048_0_1_2_3 : S16x4x2048x1.BroadcastsInDim S16x4x2048x2048 (![0, 1, 2, 3] : Fin 4 → Fin S16x4x2048x2048.rank)
  transposes_S16x4x2048x64_S4x2048x16x64_1_2_0_3 : S16x4x2048x64.Transposes [1, 2, 0, 3] S4x2048x16x64
  dot_S16x4x2048x64_S16x4x2048x64_S16x4x2048x2048_3_3_2_2_01_01_wf : DotDims.WF S16x4x2048x64 S16x4x2048x64 S16x4x2048x2048 [3] [3] [2] [2] [0, 1] [0, 1]
  dot_S16x4x2048x2048_S16x4x2048x64_S16x4x2048x64_3_2_2_3_01_01_wf : DotDims.WF S16x4x2048x2048 S16x4x2048x64 S16x4x2048x64 [3] [2] [2] [3] [0, 1] [0, 1]

variable [Facts₀]

def dot_S16x4x2048x64_S16x4x2048x64_S16x4x2048x2048_3_3_2_2_01_01 : DotDims S16x4x2048x64 S16x4x2048x64 S16x4x2048x2048 where
  lhsContracting := [3]
  rhsContracting := [3]
  lhsNonContracting := [2]
  rhsNonContracting := [2]
  lhsBatch := [0, 1]
  rhsBatch := [0, 1]
  wf := dot_S16x4x2048x64_S16x4x2048x64_S16x4x2048x2048_3_3_2_2_01_01_wf
def dot_S16x4x2048x2048_S16x4x2048x64_S16x4x2048x64_3_2_2_3_01_01 : DotDims S16x4x2048x2048 S16x4x2048x64 S16x4x2048x64 where
  lhsContracting := [3]
  rhsContracting := [2]
  lhsNonContracting := [2]
  rhsNonContracting := [3]
  lhsBatch := [0, 1]
  rhsBatch := [0, 1]
  wf := dot_S16x4x2048x2048_S16x4x2048x64_S16x4x2048x64_3_2_2_3_01_01_wf

class Facts : Prop extends Facts₀ where

variable [Facts]
-- ==== Proof.AttnSpec.lean ====
/-
  Scaled dot-product attention over sixteen heads, as ONE function of the three argument arrays.

  The arrays are f32[4, 2048, 1024]: batch `b`, position `s`, and a lane `64·h + e` holding element `e` of head `h`.
  For a batch `b`, a head `h` and a query position `s`:
    * the score against key position `j` is the inner product over the head's 64 elements, times one eighth
      (the pattern `0x3E000000`; one eighth is the reciprocal of the square root of the head size 64);
    * the row's maximum is the fold of `max` over the 2048 key positions, starting from minus infinity;
    * the weight of `j` is `exp (score j - maximum)`, and the normalizer is the sum of the weights;
    * the result at element `d` is the weighted sum of the values' element `d` over the key positions, divided by
      the normalizer.
  The result array is f32[4, 2048, 16, 64], indexed (b, s, h, d).
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- An argument array: batch, position, lane. -/
abbrev Arr : Type := (⟨3, ![4, 2048, 1024]⟩ : Shape).Idx → EReal

/-- The result array: batch, position, head, element. -/
abbrev Res : Type := (⟨4, ![4, 2048, 16, 64]⟩ : Shape).Idx → EReal

/-- The lane of element `e` of head `h`. -/
def lane (h : Fin 16) (e : Fin 64) : Fin 1024 := ⟨h.val * 64 + e.val, by omega⟩

theorem lane_val (h : Fin 16) (e : Fin 64) : (lane h e).val = h.val * 64 + e.val := rfl

/-- Where element `e` of head `h` at batch `b`, position `s` sits in an argument array. -/
abbrev at3 (b : Fin 4) (s : Fin 2048) (h : Fin 16) (e : Fin 64) : (⟨3, ![4, 2048, 1024]⟩ : Shape).Idx :=
  ix3 b s (lane h e)

/-- The scaled score of query position `s` against key position `j`. -/
def score (q k : Arr) (b : Fin 4) (h : Fin 16) (s j : Fin 2048) : EReal :=
  (∑ e : Fin 64, q (at3 b s h e) * k (at3 b j h e)) * Ideal.ofBits .f32 0x3E000000#32

/-- The largest score of the row, from minus infinity. -/
def rowMax (q k : Arr) (b : Fin 4) (h : Fin 16) (s : Fin 2048) : EReal :=
  (Finset.univ : Finset (Fin 2048)).fold max (Ideal.ofBits .f32 0xFF800000#32) (fun j => score q k b h s j)

/-- The unnormalized weight of key position `j`. -/
def weight (q k : Arr) (b : Fin 4) (h : Fin 16) (s j : Fin 2048) : EReal :=
  Ideal.exp (score q k b h s j - rowMax q k b h s)

/-- The normalizer: the sum of the row's weights. -/
def denom (q k : Arr) (b : Fin 4) (h : Fin 16) (s : Fin 2048) : EReal :=
  ∑ j : Fin 2048, weight q k b h s j

/-- Attention at batch `b`, position `s`, head `h`, element `d`: the weighted sum of the values, normalized last. -/
def out (q k v : Arr) (b : Fin 4) (s : Fin 2048) (h : Fin 16) (d : Fin 64) : EReal :=
  Ideal.div (∑ j : Fin 2048, weight q k b h s j * v (at3 b j h d)) (denom q k b h s)

/-- The whole result array. -/
def G (q k v : Arr) : Res := fun i => out q k v (i 0) (i 1) (i 2) (i 3)

theorem G_ix4 (q k v : Arr) (b : Fin 4) (s : Fin 2048) (h : Fin 16) (d : Fin 64) :
    G q k v (ix4 b s h d) = out q k v b s h d := rfl

/-- Every entry of an array is a real number. -/
def Finite (x : Arr) : Prop := ∀ i, ∃ r : ℝ, x i = (r : EReal)

end Cert.Attn

end
-- ==== Proof.AttnBody.lean ====
/-
  One head of the kernel's body, read at an index.

  The body handles two heads per grid point; for each it cuts 64 lanes out of the three loaded blocks and computes,
  on a [512, 64] block of queries against [2048, 64] blocks of keys and values: the scores (a matrix product
  contracting the 64 lanes, times one eighth), each row's maximum, the exponentials of the scores less the maximum,
  their row sums, the matrix product of the exponentials with the values, and the quotient by the row sums.
  Read at row `r` and lane `d` this is the attention formula over the block's own rows.
-/
import proofs.«127620_j61014305407580_2_alg».proof.Proof.Gen.KernelIdeal.Skeleton
import proofs.«127620_j61014305407580_2_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.Attn.Body

open Cert.KernelIdeal Cert.KernelIdeal.Gen Idealize.ShloMosaic Idealize.ShloMosaic.ValueIdx

/-- The scaled scores of a block of queries against a block of keys. -/
def scores (qh : FVec Ideal S512x64 .f32) (kh : FVec Ideal S2048x64 .f32) : FVec Ideal S512x2048 .f32 :=
  mulf (matmul dot_S512x64_S2048x64_S512x2048_1_1_0_0_n_n none (truncf .bf16 qh bitsLt_bf16_f32) (truncf .bf16 kh bitsLt_bf16_f32)
      (constant (F := Ideal) S512x2048 .f32 0x00000000#32))
    (broadcast S512x2048 (Scalar.ofBits (F := Ideal) .f32 0x3E000000#32))

/-- The exponentials of the scores less their row's maximum. -/
def expos (sc : FVec Ideal S512x2048 .f32) : FVec Ideal S512x2048 .f32 :=
  exp (subf sc (broadcastTo S512x2048 (shapeCast S512x1
    (multiReduction (F := Ideal) .maximumf [1] S512 sc 0xFF800000#32 reduces_S512x2048_S512 (.inl rfl) rfl) shapeCasts_S512_S512x1)
    broadcasts_S512x1_S512x2048))

/-- The weighted values over the row sums. -/
def normalized (ex : FVec Ideal S512x2048 .f32) (vh : FVec Ideal S2048x64 .f32) : FVec Ideal S512x64 .f32 :=
  divf (matmul dot_S512x2048_S2048x64_S512x64_1_0_0_1_n_n none (truncf .bf16 ex bitsLt_bf16_f32) (truncf .bf16 vh bitsLt_bf16_f32)
      (constant (F := Ideal) S512x64 .f32 0x00000000#32))
    (broadcastTo S512x64 (shapeCast S512x1
      (multiReduction (F := Ideal) .add [1] S512 ex 0x00000000#32 reduces_S512x2048_S512 (.inl rfl) rfl) shapeCasts_S512_S512x1)
      broadcasts_S512x1_S512x64)

/-- One head of the body. -/
def head (qh : FVec Ideal S512x64 .f32) (kh vh : FVec Ideal S2048x64 .f32) : FVec Ideal S512x64 .f32 :=
  normalized (expos (scores qh kh)) vh

/-- The first store's payload is the head on lanes 0–63 of the three blocks, with a unit axis put in front. -/
theorem pay_lo (x0 : Vec Ideal S1x512x128 .f32) (x1 x2 : Vec Ideal S1x2048x128 .f32) :
    k0_pay5 (F := Ideal) x0 x1 x2 = shapeCast S1x512x64
      (head (extractStridedSlice S512x64 ![0, 0] (k0_pay2 x0) slices_S512x128_o0_0_S512x64)
        (extractStridedSlice S2048x64 ![0, 0] (k0_pay3 x1) slices_S2048x128_o0_0_S2048x64)
        (extractStridedSlice S2048x64 ![0, 0] (k0_pay4 x2) slices_S2048x128_o0_0_S2048x64)) shapeCasts_S512x64_S1x512x64 := rfl

/-- The second store's payload is the head on lanes 64–127. -/
theorem pay_hi (x0 : Vec Ideal S1x512x128 .f32) (x1 x2 : Vec Ideal S1x2048x128 .f32) :
    k0_pay1 (F := Ideal) (k0_pay6 x2) (k0_pay7 x0 x1) k0_pay8 = shapeCast S1x512x64
      (head (extractStridedSlice S512x64 ![0, 64] (k0_pay2 x0) slices_S512x128_o0_64_S512x64)
        (extractStridedSlice S2048x64 ![0, 64] (k0_pay3 x1) slices_S2048x128_o0_64_S2048x64)
        (extractStridedSlice S2048x64 ![0, 64] (k0_pay4 x2) slices_S2048x128_o0_64_S2048x64)) shapeCasts_S512x64_S1x512x64 := rfl

/-! ## The two matrix products' operand indices -/

theorem qk_lhs (i : S512x2048.Idx) (q : dot_S512x64_S2048x64_S512x2048_1_1_0_0_n_n.contr.Idx) (e : Fin 64)
    (hq : (q ⟨0, by decide⟩).val = e.val) : dot_S512x64_S2048x64_S512x2048_1_1_0_0_n_n.lhsIdx i q = ix2 (i 0) e := funext fun a => Fin.ext (by
  match a with
  | ⟨0, _⟩ =>
    show (dot_S512x64_S2048x64_S512x2048_1_1_0_0_n_n.lhsIdx i q 0).val = (i 0).val
    unfold DotDims.lhsIdx
    rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
    rfl
  | ⟨1, _⟩ => exact (dot_S512x64_S2048x64_S512x2048_1_1_0_0_n_n.lhsIdx_val_of_single rfl i q).trans hq)

theorem qk_rhs (i : S512x2048.Idx) (q : dot_S512x64_S2048x64_S512x2048_1_1_0_0_n_n.contr.Idx) (e : Fin 64)
    (hq : (q ⟨0, by decide⟩).val = e.val) : dot_S512x64_S2048x64_S512x2048_1_1_0_0_n_n.rhsIdx i q = ix2 (i 1) e := funext fun a => Fin.ext (by
  match a with
  | ⟨0, _⟩ =>
    show (dot_S512x64_S2048x64_S512x2048_1_1_0_0_n_n.rhsIdx i q 0).val = (i 1).val
    unfold DotDims.rhsIdx
    rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
    rfl
  | ⟨1, _⟩ => exact (dot_S512x64_S2048x64_S512x2048_1_1_0_0_n_n.rhsIdx_val_of_single rfl i q).trans hq)

theorem pv_lhs (i : S512x64.Idx) (q : dot_S512x2048_S2048x64_S512x64_1_0_0_1_n_n.contr.Idx) (j : Fin 2048)
    (hq : (q ⟨0, by decide⟩).val = j.val) : dot_S512x2048_S2048x64_S512x64_1_0_0_1_n_n.lhsIdx i q = ix2 (i 0) j := funext fun a => Fin.ext (by
  match a with
  | ⟨0, _⟩ =>
    show (dot_S512x2048_S2048x64_S512x64_1_0_0_1_n_n.lhsIdx i q 0).val = (i 0).val
    unfold DotDims.lhsIdx
    rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
    rfl
  | ⟨1, _⟩ => exact (dot_S512x2048_S2048x64_S512x64_1_0_0_1_n_n.lhsIdx_val_of_single rfl i q).trans hq)

theorem pv_rhs (i : S512x64.Idx) (q : dot_S512x2048_S2048x64_S512x64_1_0_0_1_n_n.contr.Idx) (j : Fin 2048)
    (hq : (q ⟨0, by decide⟩).val = j.val) : dot_S512x2048_S2048x64_S512x64_1_0_0_1_n_n.rhsIdx i q = ix2 j (i 1) := funext fun a => Fin.ext (by
  match a with
  | ⟨0, _⟩ => exact (dot_S512x2048_S2048x64_S512x64_1_0_0_1_n_n.rhsIdx_val_of_single rfl i q).trans hq
  | ⟨1, _⟩ =>
    show (dot_S512x2048_S2048x64_S512x64_1_0_0_1_n_n.rhsIdx i q 1).val = (i 1).val
    unfold DotDims.rhsIdx
    rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
    rfl)

/-! ## The pieces at an index -/

/-- The score of query row `r` against key row `j`: the inner product over the 64 lanes, times one eighth. -/
def sc (qh : FVec Ideal S512x64 .f32) (kh : FVec Ideal S2048x64 .f32) (r : Fin 512) (j : Fin 2048) : EReal :=
  (∑ e : Fin 64, qh (ix2 r e) * kh (ix2 j e)) * Ideal.ofBits .f32 0x3E000000#32

theorem scores_apply (qh : FVec Ideal S512x64 .f32) (kh : FVec Ideal S2048x64 .f32) (r : Fin 512) (j : Fin 2048) :
    scores qh kh (ix2 r j) = sc qh kh r j := by
  unfold scores sc
  rw [mulf_apply, broadcast_apply]
  refine congrArg (· * Ideal.ofBits .f32 0x3E000000#32) ?_
  simp only [matmul]
  rw [Ideal.matmul_constant_zero_apply, ← Equiv.sum_comp (contrEquiv1 dot_S512x64_S2048x64_S512x2048_1_1_0_0_n_n 64 rfl rfl).symm]
  refine Finset.sum_congr rfl fun e _ => ?_
  have hk := contrEquiv1_symm_val dot_S512x64_S2048x64_S512x2048_1_1_0_0_n_n 64 rfl rfl e
  rw [qk_lhs (ix2 r j) _ e hk, qk_rhs (ix2 r j) _ e hk]
  rfl

/-- A column of row values spread over the columns reads its row. -/
theorem column_apply {n : Nat} (x : FVec Ideal S512 .f32) (hb : S512x1.Broadcasts ⟨2, ![512, n]⟩) (r : Fin 512) (c : Fin n) :
    broadcastTo ⟨2, ![512, n]⟩ (shapeCast S512x1 x shapeCasts_S512_S512x1) hb (ix2 r c) = x (ix1 r) := by
  rw [broadcastTo_apply _ hb (ix2 r c) (ix2 r (0 : Fin 1)) (fun a => by
    match a with
    | ⟨0, _⟩ => rfl
    | ⟨1, _⟩ => rfl)]
  exact shapeCast_apply x shapeCasts_S512_S512x1 (ix2 r (0 : Fin 1)) (ix1 r) (by
    rw [Shape.rowMajor_val_one, Shape.rowMajor_val_two]
    show r.val = r.val * 1 + 0
    omega)

/-- Where the reduction over the columns reads row `r`'s entries. -/
theorem lift_row (r : Fin 512) (j : Fin 2048) : reduces_S512x2048_S512.lift (ix1 r) j = ix2 r j :=
  funext fun a => Fin.ext (by match a with | ⟨0, _⟩ => rfl | ⟨1, _⟩ => rfl)

/-- The maximum of row `r`: the fold of `max` from minus infinity over the row. -/
def rmax (s : FVec Ideal S512x2048 .f32) (r : Fin 512) : EReal :=
  (Finset.univ : Finset (Fin 2048)).fold max (Ideal.ofBits .f32 0xFF800000#32) (fun j => s (ix2 r j))

/-- The body's row maximum at row `r`. -/
theorem rowmax_apply (s : FVec Ideal S512x2048 .f32) (r : Fin 512) (hφ : FKind.Formats .f32)
    (hacc : (0xFF800000#32 : BitVec 32) = 0xFF800000#32) :
    multiReduction (F := Ideal) .maximumf [1] S512 s 0xFF800000#32 reduces_S512x2048_S512 hφ hacc (ix1 r) = rmax s r :=
  (Ideal.multiReduction_maximumf_single s 0xFF800000#32 reduces_S512x2048_S512 hφ hacc (ix1 r)).trans
    (congrArg (fun f => (Finset.univ : Finset (Fin 2048)).fold max (Ideal.ofBits .f32 0xFF800000#32) f)
      (funext fun k => congrArg s (lift_row r k)))

/-- The body's row sum at row `r`. -/
theorem rowsum_apply (s : FVec Ideal S512x2048 .f32) (r : Fin 512) (hφ : FKind.Formats .f32)
    (hacc : (0x00000000#32 : BitVec 32) = 0x00000000#32) :
    multiReduction (F := Ideal) .add [1] S512 s 0x00000000#32 reduces_S512x2048_S512 hφ hacc (ix1 r) = ∑ j : Fin 2048, s (ix2 r j) :=
  (Ideal.multiReduction_add_single s 0x00000000#32 reduces_S512x2048_S512 hφ hacc (ix1 r)).trans
    (Finset.sum_congr rfl fun k _ => congrArg s (lift_row r k))

theorem expos_apply (s : FVec Ideal S512x2048 .f32) (r : Fin 512) (j : Fin 2048) :
    expos s (ix2 r j) = Ideal.exp (s (ix2 r j) - rmax s r) := by
  unfold expos
  show Ideal.exp (s (ix2 r j) - _) = _
  rw [column_apply]
  exact congrArg (fun x => Ideal.exp (s (ix2 r j) - x)) (rowmax_apply s r _ _)

theorem normalized_apply (ex : FVec Ideal S512x2048 .f32) (vh : FVec Ideal S2048x64 .f32) (r : Fin 512) (d : Fin 64) :
    normalized ex vh (ix2 r d) = Ideal.div (∑ j : Fin 2048, ex (ix2 r j) * vh (ix2 j d)) (∑ j : Fin 2048, ex (ix2 r j)) := by
  unfold normalized
  rw [divf_apply, column_apply]
  refine congrArg₂ Ideal.div ?_ (rowsum_apply ex r _ _)
  simp only [matmul]
  rw [Ideal.matmul_constant_zero_apply, ← Equiv.sum_comp (contrEquiv1 dot_S512x2048_S2048x64_S512x64_1_0_0_1_n_n 2048 rfl rfl).symm]
  refine Finset.sum_congr rfl fun j _ => ?_
  have hk := contrEquiv1_symm_val dot_S512x2048_S2048x64_S512x64_1_0_0_1_n_n 2048 rfl rfl j
  rw [pv_lhs (ix2 r d) _ j hk, pv_rhs (ix2 r d) _ j hk]
  rfl

/-- ONE HEAD AT AN INDEX: row `r`, lane `d` of the head is the weighted sum of the values' lane `d` over the key rows,
    divided by the sum of the weights, the weights the exponentials of the row's scores less their maximum. -/
theorem head_apply (qh : FVec Ideal S512x64 .f32) (kh vh : FVec Ideal S2048x64 .f32) (r : Fin 512) (d : Fin 64) :
    head qh kh vh (ix2 r d)
      = Ideal.div (∑ j : Fin 2048, Ideal.exp (sc qh kh r j - (Finset.univ : Finset (Fin 2048)).fold max (Ideal.ofBits .f32 0xFF800000#32) (fun j' => sc qh kh r j')) * vh (ix2 j d))
          (∑ j : Fin 2048, Ideal.exp (sc qh kh r j - (Finset.univ : Finset (Fin 2048)).fold max (Ideal.ofBits .f32 0xFF800000#32) (fun j' => sc qh kh r j'))) := by
  unfold head
  rw [normalized_apply]
  simp only [expos_apply, rmax, scores_apply]

end Cert.Attn.Body

end
-- ==== Proof.AttnBlock.lean ====
/-
  What the body leaves in the output block, as ONE function of the three input blocks.

  The body stores twice: lanes 0–63 of the [1, 512, 128] output block hold the first head, lanes 64–127 the second.
  Both are the same formula on the head's 64 lanes of the blocks, so the block at row `r`, lane `l` is that formula
  for the half `l / 64` at element `l % 64`.
-/
import proofs.«127620_j61014305407580_2_alg».proof.Proof.Gen.KernelIdeal.Frame
import proofs.«127620_j61014305407580_2_alg».proof.Proof.AttnBody

noncomputable section

namespace Cert.Attn.Body

open Cert.KernelIdeal Cert.KernelIdeal.Gen Idealize.ShloMosaic Idealize.ShloMosaic.ValueIdx

/-- The lane of element `e` in half `o` of a 128-lane block. -/
def lane2 (o : Fin 2) (e : Fin 64) : Fin 128 := ⟨o.val * 64 + e.val, by omega⟩

theorem lane2_val (o : Fin 2) (e : Fin 64) : (lane2 o e).val = o.val * 64 + e.val := rfl

/-- The score of the block's query row `r` against its key row `j`, on half `o`'s lanes. -/
def bsc (x0 : Vec Ideal S1x512x128 .f32) (x1 : Vec Ideal S1x2048x128 .f32) (o : Fin 2) (r : Fin 512) (j : Fin 2048) : EReal :=
  (∑ e : Fin 64, x0 (ix3 (0 : Fin 1) r (lane2 o e)) * x1 (ix3 (0 : Fin 1) j (lane2 o e))) * Ideal.ofBits .f32 0x3E000000#32

/-- Attention on half `o`'s lanes of the three blocks, at query row `r` and element `d`. -/
def half (x0 : Vec Ideal S1x512x128 .f32) (x1 x2 : Vec Ideal S1x2048x128 .f32) (o : Fin 2) (r : Fin 512) (d : Fin 64) : EReal :=
  Ideal.div
    (∑ j : Fin 2048, Ideal.exp (bsc x0 x1 o r j - (Finset.univ : Finset (Fin 2048)).fold max (Ideal.ofBits .f32 0xFF800000#32) (fun j' => bsc x0 x1 o r j'))
      * x2 (ix3 (0 : Fin 1) j (lane2 o d)))
    (∑ j : Fin 2048, Ideal.exp (bsc x0 x1 o r j - (Finset.univ : Finset (Fin 2048)).fold max (Ideal.ofBits .f32 0xFF800000#32) (fun j' => bsc x0 x1 o r j')))

/-- A lane cut out of the query block, read back in the block. -/
theorem q_entry (x0 : Vec Ideal S1x512x128 .f32) (off : Nat) (hs : S512x128.Slices ![0, off] S512x64) (r : Fin 512) (e : Fin 64)
    (l : Fin 128) (hl : l.val = off + e.val) :
    extractStridedSlice S512x64 ![0, off] (k0_pay2 x0) hs (ix2 r e) = x0 (ix3 (0 : Fin 1) r l) :=
  (slice2_axis1_apply off (k0_pay2 x0) hs r e l hl).trans (shapeCast_1ab_ab_apply x0 shapeCasts_S1x512x128_S512x128 r l)

/-- A lane cut out of the key block. -/
theorem k_entry (x1 : Vec Ideal S1x2048x128 .f32) (off : Nat) (hs : S2048x128.Slices ![0, off] S2048x64) (j : Fin 2048) (e : Fin 64)
    (l : Fin 128) (hl : l.val = off + e.val) :
    extractStridedSlice S2048x64 ![0, off] (k0_pay3 x1) hs (ix2 j e) = x1 (ix3 (0 : Fin 1) j l) :=
  (slice2_axis1_apply off (k0_pay3 x1) hs j e l hl).trans (shapeCast_1ab_ab_apply x1 shapeCasts_S1x2048x128_S2048x128 j l)

/-- A lane cut out of the value block. -/
theorem v_entry (x2 : Vec Ideal S1x2048x128 .f32) (off : Nat) (hs : S2048x128.Slices ![0, off] S2048x64) (j : Fin 2048) (e : Fin 64)
    (l : Fin 128) (hl : l.val = off + e.val) :
    extractStridedSlice S2048x64 ![0, off] (k0_pay4 x2) hs (ix2 j e) = x2 (ix3 (0 : Fin 1) j l) :=
  (slice2_axis1_apply off (k0_pay4 x2) hs j e l hl).trans (shapeCast_1ab_ab_apply x2 shapeCasts_S1x2048x128_S2048x128 j l)

/-- The head on the lanes from `off = 64·o` is the half `o`. -/
theorem head_half (x0 : Vec Ideal S1x512x128 .f32) (x1 x2 : Vec Ideal S1x2048x128 .f32) (off : Nat) (o : Fin 2) (ho : off = o.val * 64)
    (hs0 : S512x128.Slices ![0, off] S512x64) (hs1 : S2048x128.Slices ![0, off] S2048x64) (r : Fin 512) (d : Fin 64) :
    head (extractStridedSlice S512x64 ![0, off] (k0_pay2 x0) hs0) (extractStridedSlice S2048x64 ![0, off] (k0_pay3 x1) hs1)
      (extractStridedSlice S2048x64 ![0, off] (k0_pay4 x2) hs1) (ix2 r d) = half x0 x1 x2 o r d := by
  have hq : ∀ (r : Fin 512) (e : Fin 64), extractStridedSlice S512x64 ![0, off] (k0_pay2 x0) hs0 (ix2 r e) = x0 (ix3 (0 : Fin 1) r (lane2 o e)) :=
    fun r e => q_entry x0 off hs0 r e _ (by rw [lane2_val, ho])
  have hk : ∀ (j : Fin 2048) (e : Fin 64), extractStridedSlice S2048x64 ![0, off] (k0_pay3 x1) hs1 (ix2 j e) = x1 (ix3 (0 : Fin 1) j (lane2 o e)) :=
    fun j e => k_entry x1 off hs1 j e _ (by rw [lane2_val, ho])
  have hv : ∀ (j : Fin 2048) (e : Fin 64), extractStridedSlice S2048x64 ![0, off] (k0_pay4 x2) hs1 (ix2 j e) = x2 (ix3 (0 : Fin 1) j (lane2 o e)) :=
    fun j e => v_entry x2 off hs1 j e _ (by rw [lane2_val, ho])
  rw [head_apply]
  unfold half bsc sc
  simp only [hq, hk, hv]

/-! ## The two stores as pieces of one function of the block's index -/

theorem half_congr (x0 : Vec Ideal S1x512x128 .f32) (x1 x2 : Vec Ideal S1x2048x128 .f32) {o o' : Fin 2} {r r' : Fin 512} {d d' : Fin 64}
    (ho : o.val = o'.val) (hr : r.val = r'.val) (hd : d.val = d'.val) : half x0 x1 x2 o r d = half x0 x1 x2 o' r' d' := by
  obtain rfl := Fin.ext ho
  obtain rfl := Fin.ext hr
  obtain rfl := Fin.ext hd
  rfl

/-- The output block at row `y 1`, lane `y 2`: the half `lane / 64` at element `lane % 64`. -/
def blockFn (x0 : Vec Ideal S1x512x128 .f32) (x1 x2 : Vec Ideal S1x2048x128 .f32) : S1x512x128.Idx → EReal := fun y =>
  half x0 x1 x2 ⟨(y 2).val / 64, by have h : (y 2).val < 128 := (y 2).isLt; omega⟩ ⟨(y 1).val, (y 1).isLt⟩
    ⟨(y 2).val % 64, Nat.mod_lt _ (by decide)⟩

theorem hz3 : (![0, 0, 0] : Fin 3 → Nat) = fun _ => 0 := funext fun a => by fin_cases a <;> rfl

/-- The second store's rectangle starts at lane 64: it is the half 1. -/
theorem blockFn_emb_hi (x0 : Vec Ideal S1x512x128 .f32) (x1 x2 : Vec Ideal S1x2048x128 .f32) (u : Fin 1) (r : Fin 512) (d : Fin 64) :
    blockFn x0 x1 x2 (r0_3.emb (ix3 u r d)) = half x0 x1 x2 1 r d :=
  half_congr x0 x1 x2 (by show (64 + 1 * d.val) / 64 = 1; omega) (by show 0 + 1 * r.val = r.val; omega)
    (by show (64 + 1 * d.val) % 64 = d.val; omega)

/-- The first store's rectangle starts at lane 0: it is the half 0. -/
theorem blockFn_emb_lo (x0 : Vec Ideal S1x512x128 .f32) (x1 x2 : Vec Ideal S1x2048x128 .f32) (u : Fin 1) (r : Fin 512) (d : Fin 64) :
    blockFn x0 x1 x2 (r0_2.emb (ix3 u r d)) = half x0 x1 x2 0 r d :=
  half_congr x0 x1 x2 (by show (0 + 1 * d.val) / 64 = 0; omega) (by show 0 + 1 * r.val = r.val; omega)
    (by show (0 + 1 * d.val) % 64 = d.val; omega)

/-- THE OUTPUT BLOCK after the body is `blockFn` of the three input blocks: each store's payload is the part of it under
    the store's rectangle, and the two rectangles cover the block. -/
theorem out_block (x0 : Vec Ideal S1x512x128 .f32) (x1 x2 : Vec Ideal S1x2048x128 .f32) (y : S1x512x128.Idx) :
    out0_3 x0 x1 x2 y = blockFn x0 x1 x2 y := by
  unfold out0_3
  simp only [View.ld_unit_zero (S := S1x512x128) hz3, View.ld_unit_zero (S := S1x2048x128) hz3]
  refine View.canon_apply_of_pieces (Val := Elt Ideal) (S := S1x512x128) (e := .f32) (blockFn x0 x1 x2) _ ?_ y (cover0_3 _ _ y)
  intro p hp x
  simp only [List.mem_cons, List.mem_nil_iff, or_false] at hp
  rcases hp with rfl | rfl
  · obtain ⟨u, r, d, rfl⟩ : ∃ (u : Fin 1) (r : Fin 512) (d : Fin 64), x = ix3 u r d := ⟨x 0, x 1, x 2, eq_ix3 x⟩
    show k0_pay1 (k0_pay6 x2) (k0_pay7 x0 x1) k0_pay8 (ix3 u r d) = blockFn x0 x1 x2 (r0_3.emb (ix3 u r d))
    rw [pay_hi, blockFn_emb_hi, shapeCast_ab_1ab_apply]
    exact head_half x0 x1 x2 64 1 rfl _ _ r d
  · obtain ⟨u, r, d, rfl⟩ : ∃ (u : Fin 1) (r : Fin 512) (d : Fin 64), x = ix3 u r d := ⟨x 0, x 1, x 2, eq_ix3 x⟩
    show k0_pay5 x0 x1 x2 (ix3 u r d) = blockFn x0 x1 x2 (r0_2.emb (ix3 u r d))
    rw [pay_lo, blockFn_emb_lo, shapeCast_ab_1ab_apply]
    exact head_half x0 x1 x2 0 0 rfl _ _ r d

end Cert.Attn.Body

end
-- ==== Proof.AttnWhole.lean ====
/-
  From blocks to the array: after the region, the kernel's result array holds attention at every index.

  Grid point (b, p, i) works on batch `b`, the pair of heads `p` (lanes 128·p … 128·p + 127) and the 512 query
  positions from 512·i. Its query block and output block are that batch, those positions, those lanes; its key and
  value blocks are that batch, ALL 2048 positions, those lanes. So what it writes back — the block function of its three
  input blocks — is the block of ONE function of the three whole arrays: attention at (batch, position, lane / 64,
  lane % 64). The output blocks tile the array, so the array ends holding that function.
-/
import proofs.«127620_j61014305407580_2_alg».proof.Proof.AttnBlock
import Idealize.ShloMosaic.Lib.Pipeline.Value

noncomputable section

namespace Cert.Attn.Whole

open Cert.KernelIdeal Cert.KernelIdeal.Gen Idealize.ShloMosaic Idealize.ShloMosaic.TcCoe Idealize.SL.Sem
open Idealize.ShloMosaic.ValueIdx Cert.Attn Cert.Attn.Body
open Idealize.ShloMosaic.Pipeline (Dat)

variable (m : (ℓ : Loc nD τ sig) → Buf (Elt Ideal) ℓ) (ρ : Dev nD → PrngReg)

/-- The region's result array, heads still side by side on the lane axis: batch, position, lane. -/
def flat (q k v : Arr) : Arr := fun i =>
  out q k v ⟨(i 0).val, (i 0).isLt⟩ ⟨(i 1).val, (i 1).isLt⟩
    ⟨(i 2).val / 64, by have h : (i 2).val < 1024 := (i 2).isLt; omega⟩ ⟨(i 2).val % 64, Nat.mod_lt _ (by decide)⟩

/-- Attention on a half of three blocks is attention on the whole arrays, once each block entry the formula reads is
    the array entry it stands for. -/
theorem half_eq_out (q k v : Arr) (x0 : Vec Ideal S1x512x128 .f32) (x1 x2 : Vec Ideal S1x2048x128 .f32)
    (b : Fin 4) (s : Fin 2048) (h : Fin 16) (o : Fin 2) (r : Fin 512) (d d' : Fin 64) (hd : d' = d)
    (hq : ∀ e : Fin 64, x0 (ix3 (0 : Fin 1) r (lane2 o e)) = q (at3 b s h e))
    (hk : ∀ (j : Fin 2048) (e : Fin 64), x1 (ix3 (0 : Fin 1) j (lane2 o e)) = k (at3 b j h e))
    (hv : ∀ (j : Fin 2048) (e : Fin 64), x2 (ix3 (0 : Fin 1) j (lane2 o e)) = v (at3 b j h e)) :
    half x0 x1 x2 o r d' = out q k v b s h d := by
  subst hd
  unfold half out denom weight rowMax score bsc
  simp only [hq, hk, hv]

/-- The printed index maps, decided over the 128 grid points: the query window moves with the output window; the key and
    value windows share its batch and lane block and stay at position block 0; the output's block indices are in range. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = win0_3.index t (2 : Fin 3)
    ∧ win0_1.index t (0 : Fin 3) = win0_3.index t (0 : Fin 3) ∧ win0_1.index t (1 : Fin 3) = 0
    ∧ win0_1.index t (2 : Fin 3) = win0_3.index t (2 : Fin 3)
    ∧ win0_2.index t (0 : Fin 3) = win0_3.index t (0 : Fin 3) ∧ win0_2.index t (1 : Fin 3) = 0
    ∧ win0_2.index t (2 : Fin 3) = win0_3.index t (2 : Fin 3)
    ∧ win0_3.index t (0 : Fin 3) ≤ 3 ∧ win0_3.index t (1 : Fin 3) ≤ 3 ∧ win0_3.index t (2 : Fin 3) ≤ 7 :=
  (by decide +kernel : ∀ t : Fin grid0.N, _)

/-- Every block of the array is some point's output block. -/
theorem idx_onto : ∀ (q0 : Fin 4) (q1 : Fin 4) (q2 : Fin 8), ∃ t : Fin cfg0.N, win0_3.index t = ![q0.val, q1.val, q2.val] :=
  (by decide +kernel : ∀ (q0 : Fin 4) (q1 : Fin 4) (q2 : Fin 8), ∃ t : Fin grid0.N, win0_3.index t = ![q0.val, q1.val, q2.val])

/-- WHAT POINT `t` WRITES BACK is block `t` of `flat` of the argument arrays as the region finds them. -/
theorem flushed_eq (c : Dev nD) (t : Fin cfg0.N) :
    (dats m 0 c).flushed 3 t
      = ((cfg0.win 3).blk t).view.read (Elt Ideal) (flat (V m c main_arg0) (V m c main_arg1) (V m c main_arg2)) := by
  show (cfg0.win 3).cut (grid0.coords t) ((dats m 0 c).after 3 t) = _
  rw [after0_3]
  obtain ⟨a0, a1, a2, b0, b1, b2, c0, c1, c2, l0, l1, l2⟩ := idx_facts t
  funext y
  have hy0 : (y 0).val < 1 := (y 0).isLt
  have hy1 : (y 1).val < 512 := (y 1).isLt
  have hy2 : (y 2).val < 128 := (y 2).isLt
  refine (out_block (iblk m c 0 t) (iblk m c 1 t) (iblk m c 2 t) y).trans ?_
  show half (iblk m c 0 t) (iblk m c 1 t) (iblk m c 2 t) ⟨(y 2).val / 64, _⟩ ⟨(y 1).val, _⟩ ⟨(y 2).val % 64, _⟩
    = out (V m c main_arg0) (V m c main_arg1) (V m c main_arg2)
        ⟨win0_3.index t (0 : Fin 3) * 1 + 1 * (y 0).val, _⟩ ⟨win0_3.index t (1 : Fin 3) * 512 + 1 * (y 1).val, _⟩
        ⟨(win0_3.index t (2 : Fin 3) * 128 + 1 * (y 2).val) / 64, _⟩ ⟨(win0_3.index t (2 : Fin 3) * 128 + 1 * (y 2).val) % 64, _⟩
  refine half_eq_out (V m c main_arg0) (V m c main_arg1) (V m c main_arg2) (iblk m c 0 t) (iblk m c 1 t) (iblk m c 2 t)
    _ _ _ _ _ _ _ (Fin.ext (by show (y 2).val % 64 = (win0_3.index t (2 : Fin 3) * 128 + 1 * (y 2).val) % 64; omega)) ?_ ?_ ?_
  · intro e
    show V m c main_arg0 (((cfg0.win 0).blk t).view.emb (ix3 (0 : Fin 1) ⟨(y 1).val, hy1⟩ (lane2 ⟨(y 2).val / 64, by omega⟩ e))) = V m c main_arg0 _
    refine congrArg (V m c main_arg0) (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 512 + 1 * (y 1).val = win0_3.index t (1 : Fin 3) * 512 + 1 * (y 1).val; omega
    | ⟨2, _⟩ => show win0_0.index t (2 : Fin 3) * 128 + 1 * ((y 2).val / 64 * 64 + e.val) = (win0_3.index t (2 : Fin 3) * 128 + 1 * (y 2).val) / 64 * 64 + e.val; omega
  · intro j e
    show V m c main_arg1 (((cfg0.win 1).blk t).view.emb (ix3 (0 : Fin 1) j (lane2 ⟨(y 2).val / 64, by omega⟩ e))) = V m c main_arg1 _
    refine congrArg (V m c main_arg1) (funext fun a => Fin.ext ?_)
    match a with
    | ⟨0, _⟩ => show win0_1.index t (0 : Fin 3) * 1 + 1 * 0 = win0_3.index t (0 : Fin 3) * 1 + 1 * (y 0).val; omega
    | ⟨1, _⟩ => show win0_1.index t (1 : Fin 3) * 2048 + 1 * j.val = j.val; omega
    | ⟨2, _⟩ => show win0_1.index t (2 : Fin 3) * 128 + 1 * ((y 2).val / 64 * 64 + e.val) = (win0_3.index t (2 : Fin 3) * 128 + 1 * (y 2).val) / 64 * 64 + e.val; omega
  · intro j e
    show V m c main_arg2 (((cfg0.win 2).blk t).view.emb (ix3 (0 : Fin 1) j (lane2 ⟨(y 2).val / 64, by omega⟩ e))) = V m c main_arg2 _
    refine congrArg (V m c main_arg2) (funext fun a => Fin.ext ?_)
    match a with
    | ⟨0, _⟩ => show win0_2.index t (0 : Fin 3) * 1 + 1 * 0 = win0_3.index t (0 : Fin 3) * 1 + 1 * (y 0).val; omega
    | ⟨1, _⟩ => show win0_2.index t (1 : Fin 3) * 2048 + 1 * j.val = j.val; omega
    | ⟨2, _⟩ => show win0_2.index t (2 : Fin 3) * 128 + 1 * ((y 2).val / 64 * 64 + e.val) = (win0_3.index t (2 : Fin 3) * 128 + 1 * (y 2).val) / 64 * 64 + e.val; omega

/-- An index of the array is in point `t`'s output block iff each coordinate is in the block's range on its axis. -/
theorem mem_blk (t : Fin cfg0.N) (i : S4x2048x1024.Idx) :
    i ∈ ((cfg0.win 3).blk t).view.set ↔ ∀ a : Fin 3, win0_3.index t a * S1x512x128.size a ≤ (i a).val
      ∧ (i a).val < win0_3.index t a * S1x512x128.size a + S1x512x128.size a := by
  show i ∈ ((View.whole main_v0).slice (win0_3.rect t)).set ↔ _
  rw [View.set_slice_whole, Rect.mem_set_unit]
  exact Iff.rfl

/-- The output blocks cover the array: index (b, s, l) is in the block of the point with block indices (b, s / 512, l / 128). -/
theorem cover (i : S4x2048x1024.Idx) : ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩ ⟨(i 2).val / 128, by omega⟩
  have q0 : win0_3.index t (0 : Fin 3) = (i 0).val := congrFun ht 0
  have q1 : win0_3.index t (1 : Fin 3) = (i 1).val / 512 := congrFun ht 1
  have q2 : win0_3.index t (2 : Fin 3) = (i 2).val / 128 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-- THE ARRAY after the region: `flat` of the argument arrays. -/
theorem final (c : Dev nD) :
    (dats m 0 c).arrAt 3 cfg0.N = flat (V m c main_arg0) (V m c main_arg1) (V m c main_arg2) :=
  (dats m 0 c).arrAt_eq_of_cover 3 _ (fun t _ => flushed_eq m c t) cover

end Cert.Attn.Whole

end
-- ==== Proof.AttnReshape.lean ====
/-
  Splitting the lane axis of the attention result, laid out as batch, position, lane, into (head, element)
  gives the attention array indexed (batch, position, head, element).
-/
import proofs.«127620_j61014305407580_2_alg».proof.Proof.AttnSpec
import Idealize.ShloMosaic.Lib.Pipeline.Value
import Idealize.ShloMosaic.Lib.ValueIdx

noncomputable section

namespace Cert.Attn.Reshape

open Idealize.ShloMosaic Idealize.ShloMosaic.ValueIdx

/-- the region's result array: batch, position, lane -/
def flat (q k v : Cert.Attn.Arr) : Cert.Attn.Arr := fun i =>
  Cert.Attn.out q k v ⟨(i 0).val, (i 0).isLt⟩ ⟨(i 1).val, (i 1).isLt⟩
    ⟨(i 2).val / 64, by have h : (i 2).val < 1024 := (i 2).isLt; omega⟩ ⟨(i 2).val % 64, Nat.mod_lt _ (by decide)⟩

/-- At lane 64 h + d the flat array holds attention at head h, element d: the quotient and the remainder of the
    lane by 64 are h and d. -/
theorem flat_at (q k v : Cert.Attn.Arr) (b : Fin 4) (s : Fin 2048) (h : Fin 16) (d : Fin 64) :
    flat q k v (at3 b s h d) = out q k v b s h d := by
  have hh : h.val < 16 := h.isLt
  have hd : d.val < 64 := d.isLt
  have e1 : (⟨(h.val * 64 + d.val) / 64, by omega⟩ : Fin 16) = h :=
    Fin.ext (by show (h.val * 64 + d.val) / 64 = h.val; omega)
  have e2 : (⟨(h.val * 64 + d.val) % 64, Nat.mod_lt _ (by decide)⟩ : Fin 64) = d :=
    Fin.ext (by show (h.val * 64 + d.val) % 64 = d.val; omega)
  show out q k v b s ⟨(h.val * 64 + d.val) / 64, _⟩ ⟨(h.val * 64 + d.val) % 64, _⟩ = out q k v b s h d
  rw [e1, e2]

/-- The flat array, recast with the lane axis split, is the attention array. -/
theorem reshape_flat (q k v : Cert.Attn.Arr) (hc : (⟨3, ![4, 2048, 1024]⟩ : Shape).ShapeCasts ⟨4, ![4, 2048, 16, 64]⟩) :
    shapeCast (⟨4, ![4, 2048, 16, 64]⟩ : Shape) (flat q k v) hc = Cert.Attn.G q k v := by
  funext i
  obtain ⟨b, s, h, d, rfl⟩ : ∃ b s h d, i = ix4 b s h d := ⟨_, _, _, _, eq_ix4 i⟩
  have hb : b.val < 4 := b.isLt
  have hs : s.val < 2048 := s.isLt
  have hh : h.val < 16 := h.isLt
  have hd : d.val < 64 := d.isLt
  rw [shapeCast_apply (flat q k v) hc (ix4 b s h d) (at3 b s h d) (by
      rw [Shape.rowMajor_val_three, Shape.rowMajor_val_four]
      show (b.val * 2048 + s.val) * 1024 + (h.val * 64 + d.val) = ((b.val * 2048 + s.val) * 16 + h.val) * 64 + d.val
      omega), flat_at, G_ix4]

end Cert.Attn.Reshape

end
-- ==== Proof.AttnRun.lean ====
/-
  The kernel's run, read: after the region the host reshapes the lane axis [1024] into (head, element) [16, 64], so the
  program's result at (b, s, h, d) is the region's array at (b, s, 64·h + d): attention at (b, s, h, d).
-/
import proofs.«127620_j61014305407580_2_alg».proof.Proof.AttnWhole
import proofs.«127620_j61014305407580_2_alg».proof.Proof.AttnReshape
import Idealize.ShloMosaic.Lib.StableHlo.Run

noncomputable section

namespace Cert.Attn.Run

open Cert.KernelIdeal Cert.KernelIdeal.Gen Idealize.ShloMosaic Idealize.ShloMosaic.TcCoe Idealize.SL.Sem Cert.Attn
open Idealize.ShloMosaic.Pipeline (Dat)

variable (m : (ℓ : Loc nD τ sig) → Buf (Elt Ideal) ℓ) (ρ : Dev nD → PrngReg)

/-- The host line after the region leaves attention in the program's result: it reads the region's array, which
    is attention with the heads side by side on the lane axis, by (head, element). -/
theorem tail_eq (c : Dev nD) :
    Pipeline.afterTail₀ cfgs (dats m) 0 (V0 m) [hostOps1] c main_v1
      = G (m ((c : Thread nD τ).loc main_arg0)) (m ((c : Thread nD τ).loc main_arg1)) (m ((c : Thread nD τ).loc main_arg2)) := by
  unfold Pipeline.afterTail₀
  show StableHlo.after hostOps1 _ (Proc.devRef .tc main_v1) = _
  after_results
  have hw := (Pipeline.withArrays_arr spec0 launch0.win.arr_inj c (V0 m c) (fun w => (dats m 0 c).arrAt w cfg0.N) 3).trans
    (Whole.final m c)
  refine Eq.trans ?_ (Reshape.reshape_flat (m ((c : Thread nD τ).loc main_arg0)) (m ((c : Thread nD τ).loc main_arg1)) (m ((c : Thread nD τ).loc main_arg2)) shapeCasts_S4x2048x1024_S4x2048x16x64)
  exact congrArg (fun X : Arr => shapeCast (⟨4, ![4, 2048, 16, 64]⟩ : Shape) X shapeCasts_S4x2048x1024_S4x2048x16x64) hw

/-- The program's result buffer bypasses the region: it is no window's array. -/
theorem result_bypasses : main_v1 ∈ Pipeline.restRefs sig (cfgs 0).spec :=
  Pipeline.mem_restRefs_of main_v1 rfl (fun w => by fin_cases w <;> decide)

/-- THE KERNEL'S RUN: every weakly fair execution terminates with the result at attention of the argument arrays, the
    arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).2 main_v1 result_bypasses).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Attn.Run

end
-- ==== Proof.AttnConsts.lean ====
/-
  The float constants the reference program and the attention function spell, as the extended reals their
  patterns denote: 64, one eighth, minus infinity and zero; and the square root of 64, which is 8.
-/
import Idealize.ShloMosaic.PureOps.Ideal

noncomputable section

namespace Cert.Attn.Consts

open Idealize.ShloMosaic

/-- The pattern of 64.0 denotes the real 64. -/
theorem ofBits_64 : Ideal.ofBits .f32 0x42800000#32 = ((64 : ℝ) : EReal) := by
  simp [Ideal.ofBits, Ideal.ieee, -EReal.coe_mul]; norm_num

/-- The pattern of 0.125 denotes the real one eighth. -/
theorem ofBits_eighth : Ideal.ofBits .f32 0x3E000000#32 = ((1 / 8 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-- The pattern of +0.0 denotes zero. -/
theorem ofBits_zero : Ideal.ofBits .f32 0x00000000#32 = 0 := by
  simp [Ideal.ofBits, Ideal.ieee]

/-- The square root of 64 is 8. -/
theorem sqrt_64 : Ideal.sqrt (Ideal.ofBits .f32 0x42800000#32) = ((8 : ℝ) : EReal) := by
  rw [ofBits_64, Ideal.sqrt_coe, if_neg (by norm_num)]
  have h : Real.sqrt 64 = 8 := by
    rw [show (64 : ℝ) = 8 ^ 2 by norm_num]
    exact Real.sqrt_sq (by norm_num)
  rw [h]

/-- Dividing by the square root of 64 is multiplying by the pattern of one eighth, on every extended real. -/
theorem div_sqrt_64 (x : EReal) :
    Ideal.div x (Ideal.sqrt (Ideal.ofBits .f32 0x42800000#32)) = x * Ideal.ofBits .f32 0x3E000000#32 := by
  rw [sqrt_64, ofBits_eighth, Ideal.div_coe (by norm_num)]

end Cert.Attn.Consts

end
-- ==== Proof.AttnAlgebra.lean ====
/-
  The algebra of a softmax-weighted sum over real numbers, stated on the extended reals:
  embedded finite sums, a fold of max over reals being a real, the exponential of a difference of reals,
  and the one law that needs real entries: dividing every weight by a nonzero real normalizer before the
  weighted sum is dividing the weighted sum by it afterwards.
-/
import Idealize.ShloMosaic.PureOps.Ideal

noncomputable section

namespace Cert.Attn.Algebra

open Idealize.ShloMosaic

variable {ι : Type*}

/-- A finite sum of embedded reals is the embedded sum. -/
theorem coe_sum (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- An inner product of embedded reals, scaled by an embedded real, is an embedded real. -/
theorem dot_mul_real {κ : Type*} [Fintype κ] (a b : κ → ℝ) (c : ℝ) :
    (∑ e, ((a e : ℝ) : EReal) * ((b e : ℝ) : EReal)) * ((c : ℝ) : EReal) = (((∑ e, a e * b e) * c : ℝ) : EReal) := by
  have h : ∀ e, ((a e : ℝ) : EReal) * ((b e : ℝ) : EReal) = ((a e * b e : ℝ) : EReal) := fun e => (EReal.coe_mul _ _).symm
  simp only [h]
  rw [coe_sum, ← EReal.coe_mul]

/-- The fold of max, from the bottom element, over a nonempty finite family of embedded reals is an embedded real. -/
theorem fold_max_real (s : Finset ι) (hs : s.Nonempty) (f : ι → ℝ) :
    ∃ m : ℝ, s.fold max (⊥ : EReal) (fun j => ((f j : ℝ) : EReal)) = ((m : ℝ) : EReal) := by
  induction hs using Finset.Nonempty.cons_induction with
  | singleton a => exact ⟨f a, by rw [Finset.fold_singleton]; exact max_eq_left bot_le⟩
  | cons a s ha hs ih =>
    obtain ⟨m, hm⟩ := ih
    rw [Finset.fold_cons, hm]
    rcases le_total ((f a : ℝ) : EReal) ((m : ℝ) : EReal) with h | h
    · exact ⟨m, max_eq_right h⟩
    · exact ⟨f a, max_eq_left h⟩

/-- The exponential of a difference of two embedded reals is the embedded real exponential. -/
theorem exp_sub_real (a m : ℝ) : Ideal.exp (((a : ℝ) : EReal) - ((m : ℝ) : EReal)) = ((Real.exp (a - m) : ℝ) : EReal) := by
  rw [← EReal.coe_sub, Ideal.exp_coe]

/-- Over real weights, real values and a nonzero real normalizer: normalizing each weight first, then taking
    the weighted sum, is normalizing the weighted sum. -/
theorem sum_div_mul [Fintype ι] (w x : ι → ℝ) (l : ℝ) (hl : l ≠ 0) :
    ∑ j, Ideal.div ((w j : ℝ) : EReal) ((l : ℝ) : EReal) * ((x j : ℝ) : EReal)
      = Ideal.div (∑ j, ((w j : ℝ) : EReal) * ((x j : ℝ) : EReal)) ((l : ℝ) : EReal) := by
  have h1 : ∀ j, Ideal.div ((w j : ℝ) : EReal) ((l : ℝ) : EReal) * ((x j : ℝ) : EReal)
      = ((w j * (1 / l) * x j : ℝ) : EReal) := by
    intro j
    rw [Ideal.div_coe hl, ← EReal.coe_mul, ← EReal.coe_mul]
  have h2 : ∀ j, ((w j : ℝ) : EReal) * ((x j : ℝ) : EReal) = ((w j * x j : ℝ) : EReal) :=
    fun j => (EReal.coe_mul _ _).symm
  simp only [h1, h2]
  rw [coe_sum, coe_sum, Ideal.div_coe hl, ← EReal.coe_mul, Finset.sum_mul]
  congr 1
  exact Finset.sum_congr rfl fun j _ => by ring

/-- The same with the normalizer the sum of the weights, for weights that are positive reals over a nonempty
    index set and values that are reals. -/
theorem sum_div_mul_of_pos [Fintype ι] [Nonempty ι] (W X : ι → EReal) (w x : ι → ℝ)
    (hW : ∀ j, W j = ((w j : ℝ) : EReal)) (hpos : ∀ j, 0 < w j) (hX : ∀ j, X j = ((x j : ℝ) : EReal)) :
    ∑ j, Ideal.div (W j) (∑ j', W j') * X j = Ideal.div (∑ j, W j * X j) (∑ j, W j) := by
  simp only [hW, hX]
  rw [coe_sum]
  exact sum_div_mul w x _ (Finset.sum_pos (fun j _ => hpos j) Finset.univ_nonempty).ne'

end Cert.Attn.Algebra

end
-- ==== Proof.AttnRef.lean ====
/-
  The reference program's result, read element by element, is scaled dot-product attention (Cert.Attn.G)
  whenever the three argument arrays hold real numbers only.
-/
import proofs.«127620_j61014305407580_2_alg».proof.Proof.AttnSpec
import proofs.«127620_j61014305407580_2_alg».proof.Proof.AttnConsts
import proofs.«127620_j61014305407580_2_alg».proof.Proof.AttnAlgebra
import proofs.«127620_j61014305407580_2_alg».proof.Proof.Gen.ReferenceIdeal.Read

noncomputable section

namespace Cert.Attn.Ref

open Idealize.ShloMosaic Idealize.ShloMosaic.ValueIdx Cert.ReferenceIdeal Cert.ReferenceIdeal.Gen

/-! ## The arguments, split into heads -/

/-- Splitting the lane axis into (head, element) and moving the head axis to the front: the element at
    (h, b, s, e) of the rearranged array sits at batch b, position s, lane 64 h + e of the argument. -/
theorem arg_idx (h : Fin 16) (b : Fin 4) (s : Fin 2048) (e : Fin 64) :
    Read.idx_main_v0 (Read.idx_main_v1 (ix4 h b s e)) = at3 b s h e := by
  have hb : b.val < 4 := b.isLt
  have hs : s.val < 2048 := s.isLt
  have hh : h.val < 16 := h.isLt
  have he : e.val < 64 := e.isLt
  funext a
  refine Fin.ext ?_
  match a with
  | ⟨0, _⟩ =>
    show (((b.val * 2048 + s.val) * 16 + h.val) * 64 + e.val) / 2097152 = b.val
    omega
  | ⟨1, _⟩ =>
    show (((b.val * 2048 + s.val) * 16 + h.val) * 64 + e.val) / 1024 % 2048 = s.val
    omega
  | ⟨2, _⟩ =>
    show (((b.val * 2048 + s.val) * 16 + h.val) * 64 + e.val) % 1024 = h.val * 64 + e.val
    omega

theorem v1_at (x : Arr) (h : Fin 16) (b : Fin 4) (s : Fin 2048) (e : Fin 64) :
    Read.val_main_v1 (F := Ideal) x (ix4 h b s e) = x (at3 b s h e) := by
  rw [Read.val_main_v1_apply, Read.val_main_v0_apply, arg_idx]

theorem v3_at (x : Arr) (h : Fin 16) (b : Fin 4) (s : Fin 2048) (e : Fin 64) :
    Read.val_main_v3 (F := Ideal) x (ix4 h b s e) = x (at3 b s h e) := by
  rw [Read.val_main_v3_apply, Read.val_main_v2_apply]
  exact congrArg x (arg_idx h b s e)

theorem v5_at (x : Arr) (h : Fin 16) (b : Fin 4) (s : Fin 2048) (e : Fin 64) :
    Read.val_main_v5 (F := Ideal) x (ix4 h b s e) = x (at3 b s h e) := by
  rw [Read.val_main_v5_apply, Read.val_main_v4_apply]
  exact congrArg x (arg_idx h b s e)

/-! ## The scores -/

/-- The first contraction at (h, b, s, j): the inner product of query row s and key row j over head h. -/
theorem v7_at (q k : Arr) (h : Fin 16) (b : Fin 4) (s j : Fin 2048) :
    Read.val_main_v7 (F := Ideal) q k (ix4 h b s j) = ∑ e : Fin 64, q (at3 b s h e) * k (at3 b j h e) := by
  rw [Read.val_main_v7_apply]
  refine Finset.sum_congr rfl fun e _ => ?_
  have hl : Read.lidx_main_v7 (ix4 h b s j) e = ix4 h b s e := funext fun a => Fin.ext (by
    match a with
    | ⟨0, _⟩ => rfl
    | ⟨1, _⟩ => rfl
    | ⟨2, _⟩ => rfl
    | ⟨3, _⟩ => rfl)
  have hr : Read.ridx_main_v7 (ix4 h b s j) e = ix4 h b j e := funext fun a => Fin.ext (by
    match a with
    | ⟨0, _⟩ => rfl
    | ⟨1, _⟩ => rfl
    | ⟨2, _⟩ => rfl
    | ⟨3, _⟩ => rfl)
  rw [hl, hr, v1_at, v3_at]

/-- Divided by the square root of 64, the inner product is the scaled score. -/
theorem v9_at (q k : Arr) (h : Fin 16) (b : Fin 4) (s j : Fin 2048) :
    Read.val_main_v9 (F := Ideal) q k (ix4 h b s j) = score q k b h s j := by
  rw [Read.val_main_v9_apply, v7_at, Read.val_main_v8_apply, Read.val_main_v6_apply, Read.val_main_cst_apply]
  exact Consts.div_sqrt_64 _

/-! ## The row maximum -/

/-- The maximum over the key axis at (h, b, s) is the fold of max over the row's scores from minus infinity. -/
theorem v10_at (q k : Arr) (h : Fin 16) (b : Fin 4) (s : Fin 2048) :
    Read.val_main_v10 (F := Ideal) q k (ix3 h b s) = rowMax q k b h s := by
  have hR : S16x4x2048x2048.Reduces [3] S16x4x2048 := by decide
  unfold Read.val_main_v10
  rw [Host.reduce_eq_fold_single FloatOps.maximumf _ _ _ hR _ (ix3 h b s)]
  have hi : ∀ j : Fin 2048, hR.lift (ix3 h b s) j = ix4 h b s j := fun j => funext fun a => Fin.ext (by
    match a with
    | ⟨0, _⟩ => rfl
    | ⟨1, _⟩ => rfl
    | ⟨2, _⟩ => rfl
    | ⟨3, _⟩ => rfl)
  have hf : (Read.val_main_v9 (F := Ideal) q k ∘ hR.lift (ix3 h b s)) = fun j : Fin 2048 => score q k b h s j :=
    funext fun (j : Fin 2048) => by
      show Read.val_main_v9 (F := Ideal) q k (hR.lift (ix3 h b s) j) = _
      rw [hi j, v9_at]
  rw [hf]
  rfl

/-- Guarding the maximum against minus infinity changes nothing. -/
theorem v12_at (q k : Arr) (h : Fin 16) (b : Fin 4) (s : Fin 2048) :
    Read.val_main_v12 (F := Ideal) q k (ix3 h b s) = rowMax q k b h s := by
  rw [Read.val_main_v12_apply, v10_at, Read.val_main_v11_apply, Read.val_main_cst_1_apply]
  show max (Ideal.ofBits .f32 0xFF800000#32) (rowMax q k b h s) = rowMax q k b h s
  rw [Consts.ofBits_neg_inf]
  exact max_eq_right bot_le

/-- Broadcast back along the key axis, every entry of row (h, b, s) holds the row's maximum. -/
theorem v14_at (q k : Arr) (h : Fin 16) (b : Fin 4) (s j : Fin 2048) :
    Read.val_main_v14 (F := Ideal) q k (ix4 h b s j) = rowMax q k b h s := by
  rw [Read.val_main_v14_apply, Read.val_main_v13_apply]
  have hi : Read.idx_main_v13 (Read.idx_main_v14 (ix4 h b s j)) = ix3 h b s := funext fun a => Fin.ext (by
    match a with
    | ⟨0, _⟩ => rfl
    | ⟨1, _⟩ => rfl
    | ⟨2, _⟩ => rfl)
  rw [hi, v12_at]

/-! ## The weights and their normalizer -/

/-- The exponential of the score less the row maximum is the weight. -/
theorem v16_at (q k : Arr) (h : Fin 16) (b : Fin 4) (s j : Fin 2048) :
    Read.val_main_v16 (F := Ideal) q k (ix4 h b s j) = weight q k b h s j := by
  rw [Read.val_main_v16_apply, Read.val_main_v15_apply, v9_at, v14_at]
  rfl

/-- The sum over the key axis, started from zero, is the normalizer. -/
theorem v17_at (q k : Arr) (h : Fin 16) (b : Fin 4) (s : Fin 2048) :
    Read.val_main_v17 (F := Ideal) q k (ix3 h b s) = denom q k b h s := by
  rw [Read.val_main_v17_apply, Read.val_main_cst_2_apply]
  show Ideal.ofBits .f32 0x00000000#32 + _ = _
  rw [Consts.ofBits_zero, zero_add]
  unfold denom
  refine Finset.sum_congr rfl fun j _ => ?_
  have hi : Read.idx_main_v17 (ix3 h b s) j = ix4 h b s j := funext fun a => Fin.ext (by
    match a with
    | ⟨0, _⟩ => rfl
    | ⟨1, _⟩ => rfl
    | ⟨2, _⟩ => rfl
    | ⟨3, _⟩ => rfl)
  rw [hi, v16_at]

/-- Broadcast back along the key axis, every entry of row (h, b, s) holds the row's normalizer. -/
theorem v19_at (q k : Arr) (h : Fin 16) (b : Fin 4) (s j : Fin 2048) :
    Read.val_main_v19 (F := Ideal) q k (ix4 h b s j) = denom q k b h s := by
  rw [Read.val_main_v19_apply, Read.val_main_v18_apply]
  have hi : Read.idx_main_v18 (Read.idx_main_v19 (ix4 h b s j)) = ix3 h b s := funext fun a => Fin.ext (by
    match a with
    | ⟨0, _⟩ => rfl
    | ⟨1, _⟩ => rfl
    | ⟨2, _⟩ => rfl)
  rw [hi, v17_at]

/-- The normalized weight. -/
theorem v20_at (q k : Arr) (h : Fin 16) (b : Fin 4) (s j : Fin 2048) :
    Read.val_main_v20 (F := Ideal) q k (ix4 h b s j) = Ideal.div (weight q k b h s j) (denom q k b h s) := by
  rw [Read.val_main_v20_apply, v16_at, v19_at]
  rfl

/-! ## The weighted sum of the values -/

/-- The second contraction at (h, b, s, d): the normalized weights against element d of the values of head h. -/
theorem v21_at (q k v : Arr) (h : Fin 16) (b : Fin 4) (s : Fin 2048) (d : Fin 64) :
    Read.val_main_v21 (F := Ideal) q k v (ix4 h b s d)
      = ∑ j : Fin 2048, Ideal.div (weight q k b h s j) (denom q k b h s) * v (at3 b j h d) := by
  rw [Read.val_main_v21_apply]
  refine Finset.sum_congr rfl fun j _ => ?_
  have hl : Read.lidx_main_v21 (ix4 h b s d) j = ix4 h b s j := funext fun a => Fin.ext (by
    match a with
    | ⟨0, _⟩ => rfl
    | ⟨1, _⟩ => rfl
    | ⟨2, _⟩ => rfl
    | ⟨3, _⟩ => rfl)
  have hr : Read.ridx_main_v21 (ix4 h b s d) j = ix4 h b j d := funext fun a => Fin.ext (by
    match a with
    | ⟨0, _⟩ => rfl
    | ⟨1, _⟩ => rfl
    | ⟨2, _⟩ => rfl
    | ⟨3, _⟩ => rfl)
  rw [hl, hr, v20_at, v5_at]

/-- The result at (b, s, h, d), with the head axis moved back: normalized first, summed last. -/
theorem v22_at (q k v : Arr) (b : Fin 4) (s : Fin 2048) (h : Fin 16) (d : Fin 64) :
    Read.val_main_v22 (F := Ideal) q k v (ix4 b s h d)
      = ∑ j : Fin 2048, Ideal.div (weight q k b h s j) (denom q k b h s) * v (at3 b j h d) := by
  rw [Read.val_main_v22_apply]
  have hi : Read.idx_main_v22 (ix4 b s h d) = ix4 h b s d := funext fun a => Fin.ext (by
    match a with
    | ⟨0, _⟩ => rfl
    | ⟨1, _⟩ => rfl
    | ⟨2, _⟩ => rfl
    | ⟨3, _⟩ => rfl)
  rw [hi, v21_at]

/-! ## Real entries: normalizing first or last is the same -/

/-- Over real arguments every score is a real. -/
theorem score_real (q k : Arr) (hq : Finite q) (hk : Finite k) (b : Fin 4) (h : Fin 16) (s : Fin 2048) :
    ∃ σ : Fin 2048 → ℝ, ∀ j, score q k b h s j = ((σ j : ℝ) : EReal) := by
  choose qr hqr using hq
  choose kr hkr using hk
  refine ⟨fun j => (∑ e : Fin 64, qr (at3 b s h e) * kr (at3 b j h e)) * (1 / 8), fun j => ?_⟩
  unfold score
  simp only [hqr, hkr]
  rw [Consts.ofBits_eighth]
  exact Algebra.dot_mul_real _ _ _

/-- So the row maximum is a real, and every weight is the real exponential of a real: a positive real. -/
theorem weight_real (q k : Arr) (hq : Finite q) (hk : Finite k) (b : Fin 4) (h : Fin 16) (s : Fin 2048) :
    ∃ w : Fin 2048 → ℝ, (∀ j, weight q k b h s j = ((w j : ℝ) : EReal)) ∧ ∀ j, 0 < w j := by
  obtain ⟨σ, hσ⟩ := score_real q k hq hk b h s
  obtain ⟨m, hm⟩ : ∃ m : ℝ, rowMax q k b h s = ((m : ℝ) : EReal) := by
    obtain ⟨m, hm⟩ := Algebra.fold_max_real (Finset.univ : Finset (Fin 2048)) Finset.univ_nonempty σ
    refine ⟨m, ?_⟩
    rw [← hm]
    unfold rowMax
    rw [Consts.ofBits_neg_inf]
    exact congrArg (fun f => (Finset.univ : Finset (Fin 2048)).fold max (⊥ : EReal) f) (funext hσ)
  refine ⟨fun j => Real.exp (σ j - m), fun j => ?_, fun j => Real.exp_pos _⟩
  unfold weight
  rw [hσ, hm]
  exact Algebra.exp_sub_real _ _

/-- Over real arguments, the sum of the normalized weights against the values is the weighted sum, normalized. -/
theorem out_eq (q k v : Arr) (hq : Finite q) (hk : Finite k) (hv : Finite v) (b : Fin 4) (s : Fin 2048) (h : Fin 16)
    (d : Fin 64) :
    ∑ j : Fin 2048, Ideal.div (weight q k b h s j) (denom q k b h s) * v (at3 b j h d) = out q k v b s h d := by
  obtain ⟨w, hw, hpos⟩ := weight_real q k hq hk b h s
  choose vr hvr using hv
  haveI : Nonempty (Fin 2048) := ⟨0⟩
  unfold out denom
  exact Algebra.sum_div_mul_of_pos (fun j => weight q k b h s j) (fun j => v (at3 b j h d)) w
    (fun j => vr (at3 b j h d)) hw hpos (fun j => hvr _)

/-- The reference program's result is attention. -/
theorem ref_eq (q k v : Cert.Attn.Arr) (hq : Cert.Attn.Finite q) (hk : Cert.Attn.Finite k) (hv : Cert.Attn.Finite v) :
    Cert.ReferenceIdeal.Read.val_main_v22 (F := Ideal) q k v = Cert.Attn.G q k v := by
  funext i
  obtain ⟨b, s, h, d, rfl⟩ : ∃ b s h d, i = ix4 b s h d := ⟨_, _, _, _, eq_ix4 i⟩
  rw [v22_at, G_ix4]
  exact out_eq q k v hq hk hv b s h d

end Cert.Attn.Ref

end
-- ==== Proof.AttnFinite.lean ====
/-
  The three argument arrays hold real numbers only.

  The precondition is the conjunction, over the three arrays, of "every entry has absolute value below plus infinity":
  each conjunct is a reduction by `and`, over all three axes, of the entrywise comparison |x| < +∞ (the pattern
  `0x7F800000` is plus infinity), started from 1.  A conjunction that is 1 has both parts 1; a reduction by `and` into a
  single result that is 1 met a 1 at every entry; and an extended real whose absolute value max x (-x) is below plus
  infinity is neither infinity, hence a real number.
-/
import proofs.«127620_j61014305407580_2_alg».proof.Proof.AttnSpec
import proofs.«127620_j61014305407580_2_alg».proof.Pre_finite_inputs
import proofs.«127620_j61014305407580_2_alg».proof.Proof.Gen.Pre_finite_inputs
import Idealize.ShloMosaic.Lib.ReduceAll
import Idealize.ShloMosaic.PureOps.Ideal.Laws

noncomputable section

namespace Cert.Attn.Fin

open Idealize.ShloMosaic Idealize.ShloMosaic.ValueIdx

/-- The shape with no axes has exactly one index. -/
instance subsingleton_scalar_idx : Subsingleton Cert.Pre_finite_inputs.S_.Idx := ⟨fun a b => funext fun d => d.elim0⟩

/-- An extended real whose absolute value `max x (-x)` compares below plus infinity is a real number: at either
    infinity the absolute value is plus infinity, which is not below itself. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of each of the three argument arrays is a real number. -/
theorem finite_of_pre [hP : Cert.Pre_finite_inputs.Facts] (x0 x1 x2 : Cert.Attn.Arr)
    (h : Cert.Pre_finite_inputs.fn (F := Ideal) x0 x1 x2 = (fun _ => 1#1)) :
    Cert.Attn.Finite x0 ∧ Cert.Attn.Finite x1 ∧ Cert.Attn.Finite x2 := by
  -- the predicate's one result, read at the one index of the shape with no axes
  have e := congrFun h ValueIdx.ix0
  dsimp only [Cert.Pre_finite_inputs.fn] at e
  -- (first ∧ second) ∧ third, each a reduction by `and` over the whole array
  obtain ⟨e01, e2⟩ := IntOp.andi_eq_one.1 e
  obtain ⟨e0, e1⟩ := IntOp.andi_eq_one.1 e01
  -- at every index the comparison |x i| < +∞ came out 1
  refine ⟨fun i => ?_, fun i => ?_, fun i => ?_⟩
  · exact real_of_abs_lt _ (Host.reduce_andi_all _ _ _ _ ix0 e0 i)
  · exact real_of_abs_lt _ (Host.reduce_andi_all _ _ _ _ ix0 e1 i)
  · exact real_of_abs_lt _ (Host.reduce_andi_all _ _ _ _ ix0 e2 i)

end Cert.Attn.Fin

end
-- ==== Proof.lean ====
/-
  Scaled dot-product attention, sixteen heads of 64 lanes, on f32[4, 2048, 1024] queries, keys and values: the
  kernel against the reference, equal as extended reals at every index.

  Both compute, for batch `b`, head `h`, query position `s` and element `d`,

      ( Σ_j  w_j · v[b, j, 64h + d] )  /  ( Σ_j w_j ),      w_j = exp (score_j − max_j' score_j'),
      score_j = ( Σ_e q[b, s, 64h + e] · k[b, j, 64h + e] ) · (1/8).

  The kernel takes one batch, one pair of heads and 512 query positions per grid point, against all 2048 key
  positions; it multiplies the scores by the pattern of one eighth, divides by the sum of the weights LAST, and the
  host reshapes the lane axis into (head, element) afterwards. The reference divides the scores by the square root of
  64 (which is 8, and a quotient by 8 is the product with one eighth on every extended real), takes the maximum once
  more against minus infinity (which changes nothing), and divides each weight by the sum BEFORE the weighted sum.
  Moving that quotient across the sum is the one step that needs the inputs finite: then every score is real, the
  maximum is real, every weight is a positive real and so is their sum.

  The two programs' frames: the kernel's at both instances are the generated frame theorems, the reference's is its
  generated run with the result dropped. The ideal pass rewrote nothing, so its conjunct is trivial.
-/
import proofs.«127620_j61014305407580_2_alg».proof.Defs
import proofs.«127620_j61014305407580_2_alg».proof.Proof.Gen.Kernel
import proofs.«127620_j61014305407580_2_alg».proof.Proof.Gen.Kernel.Skeleton
import proofs.«127620_j61014305407580_2_alg».proof.Proof.Gen.Kernel.Launch
import proofs.«127620_j61014305407580_2_alg».proof.Proof.Gen.Kernel.Points
import proofs.«127620_j61014305407580_2_alg».proof.Proof.Gen.Kernel.Frame
import proofs.«127620_j61014305407580_2_alg».proof.Proof.Gen.KernelIdeal
import proofs.«127620_j61014305407580_2_alg».proof.Proof.Gen.KernelIdeal.Skeleton
import proofs.«127620_j61014305407580_2_alg».proof.Proof.Gen.KernelIdeal.Launch
import proofs.«127620_j61014305407580_2_alg».proof.Proof.Gen.KernelIdeal.Points
import proofs.«127620_j61014305407580_2_alg».proof.Proof.Gen.KernelIdeal.Frame
import proofs.«127620_j61014305407580_2_alg».proof.Proof.Gen.ReferenceIdeal
import proofs.«127620_j61014305407580_2_alg».proof.Proof.Gen.Pre_finite_inputs
import proofs.«127620_j61014305407580_2_alg».proof.Proof.Gen.ReferenceIdeal.Run
import proofs.«127620_j61014305407580_2_alg».proof.Proof.Gen.ReferenceIdeal.Read
import proofs.«127620_j61014305407580_2_alg».proof.Proof.AttnRun
import proofs.«127620_j61014305407580_2_alg».proof.Proof.AttnRef
import proofs.«127620_j61014305407580_2_alg».proof.Proof.AttnFinite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- At the ideal instance, from memories agreeing on the three arguments, the kernel's result is attention of the
    arguments (its run, read) and the reference's is its composed term of the same arguments, which is attention too
    once the arguments are finite — and the precondition says they are. -/
theorem algebraic : Cert.algebraic_KernelIdeal_ReferenceIdeal := by
  intro m ρ m' ρ' hpre hagree
  refine ⟨fun c => Cert.Attn.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), Cert.Attn.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨f0, f1, f2⟩ := Cert.Attn.Fin.finite_of_pre _ _ _ (hpre c)
  exact (Cert.ReferenceIdeal.Read.val_main_v22_eq _ _ _).trans (Cert.Attn.Ref.ref_eq _ _ _ f0 f1 f2)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
